-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S8192x128 : Shape := ⟨2, ![8192, 128]⟩
abbrev S128x128 : Shape := ⟨2, ![128, 128]⟩
abbrev S128 : Shape := ⟨1, ![128]⟩
abbrev S1048576 : Shape := ⟨1, ![1048576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x128 .f32) (main_arg1 : FVec F S8192x128 .f32) (main_arg2 : FVec F S128x128 .f32) (main_arg3 : FVec F S128x128 .f32) (main_arg4 : FVec F S128 .f32) (main_arg5 : IVec S1048576 32) (main_arg6 : IVec S1048576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S65536x128 : Shape := ⟨2, ![65536, 128]⟩
abbrev S8192x128 : Shape := ⟨2, ![8192, 128]⟩
abbrev S128x128 : Shape := ⟨2, ![128, 128]⟩
abbrev S128 : Shape := ⟨1, ![128]⟩
abbrev S1048576 : Shape := ⟨1, ![1048576]⟩
abbrev S_ : Shape := ⟨0, ![]⟩
abbrev S65536 : Shape := ⟨1, ![65536]⟩
abbrev S1048576x1 : Shape := ⟨2, ![1048576, 1]⟩
abbrev S1048576x128 : Shape := ⟨2, ![1048576, 128]⟩
abbrev S65536x1 : Shape := ⟨2, ![65536, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 48
  | .vmem => 11
  | .smem => 0
  | _ => 0

abbrev bufTy : (tb : Table) → Fin (tcTables nBuf tb) → BufTy
  | .hbm, ⟨0, _⟩ => ⟨S65536x128, .f32⟩
  | .hbm, ⟨1, _⟩ => ⟨S8192x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1048576, .i32⟩
  | .hbm, ⟨6, _⟩ => ⟨S1048576, .i32⟩
  | .hbm, ⟨7, _⟩ => ⟨S_, .f32⟩
  | .hbm, ⟨8, _⟩ => ⟨S65536, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S_, .f32⟩
  | .hbm, ⟨18, _⟩ => ⟨S1048576, .f32⟩
  | .hbm, ⟨19, _⟩ => ⟨S65536, .f32⟩
  | .hbm, ⟨20, _⟩ => ⟨S_, .f32⟩
  | .hbm, ⟨21, _⟩ => ⟨S65536x128, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x128, .f32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S65536x128, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1, .f32⟩
  | .hbm, ⟨44, _⟩ => ⟨S65536x128, .f32⟩
  | .hbm, ⟨45, _⟩ => ⟨S65536x128, .f32⟩
  | .hbm, ⟨46, _⟩ => ⟨S1x128, .f32⟩
  | .hbm, ⟨47, _⟩ => ⟨S65536x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1024x128, .f32⟩
  | .local _ .vmem, ⟨10, _⟩ => ⟨S1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S65536 : S_.BroadcastsInDim S65536 (![] : Fin 0 → Fin S65536.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  scatter_S65536_S1048576x1_S1048576_n_0_0_1_wf : ScatterDims.WF S65536 S1048576x1 S1048576 [] [0] [0] 1
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S8192x128.size a
  hwx0_5 : ∀ i : grid0.Coords, EltTy.bits .f32 = 32 ∨ (Rect.block (s := S8192x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S65536x128.size a
  hwx0_6 : ∀ i : grid0.Coords, EltTy.bits .f32 = 32 ∨ (Rect.block (s := S65536x128) S1024x128.size (cc0_transform_6 i) (hinb0_6 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x128 : Shape := ⟨2, ![65536, 128]⟩
abbrev S8192x128 : Shape := ⟨2, ![8192, 128]⟩
abbrev S128x128 : Shape := ⟨2, ![128, 128]⟩
abbrev S128 : Shape := ⟨1, ![128]⟩
abbrev S1048576 : Shape := ⟨1, ![1048576]⟩
abbrev S_ : Shape := ⟨0, ![]⟩
abbrev S65536 : Shape := ⟨1, ![65536]⟩
abbrev S1048576x1 : Shape := ⟨2, ![1048576, 1]⟩
abbrev S1048576x128 : Shape := ⟨2, ![1048576, 128]⟩
abbrev S65536x1 : Shape := ⟨2, ![65536, 1]⟩
abbrev S1x128 : Shape := ⟨2, ![1, 128]⟩
abbrev S64x1024x128 : Shape := ⟨3, ![64, 1024, 128]⟩
abbrev S64x128x128 : Shape := ⟨3, ![64, 128, 128]⟩

abbrev nBuf : Space → Nat
  | .hbm => 73
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S8192x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1048576, .i32⟩
  | .hbm, ⟨6, _⟩ => ⟨S1048576, .i32⟩
  | .hbm, ⟨7, _⟩ => ⟨S_, .f32⟩
  | .hbm, ⟨8, _⟩ => ⟨S65536, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S_, .f32⟩
  | .hbm, ⟨18, _⟩ => ⟨S1048576, .f32⟩
  | .hbm, ⟨19, _⟩ => ⟨S65536, .f32⟩
  | .hbm, ⟨20, _⟩ => ⟨S_, .f32⟩
  | .hbm, ⟨21, _⟩ => ⟨S65536x128, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x128, .f32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S65536x128, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1, .f32⟩
  | .hbm, ⟨44, _⟩ => ⟨S65536x128, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S1x128, .f32⟩
  | .hbm, ⟨50, _⟩ => ⟨S65536x128, .f32⟩
  | .hbm, ⟨51, _⟩ => ⟨S65536x128, .f32⟩
  | .hbm, ⟨52, _⟩ => ⟨S_, .f32⟩
  | .hbm, ⟨53, _⟩ => ⟨S65536x128, .f32⟩
  | .hbm, ⟨54, _⟩ => ⟨S65536x128, .f32⟩
  | .hbm, ⟨55, _⟩ => ⟨S_, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S65536x1, .f32⟩
  | .hbm, ⟨61, _⟩ => ⟨S65536x128, .f32⟩
  | .hbm, ⟨62, _⟩ => ⟨S65536x128, .f32⟩
  | .hbm, ⟨63, _⟩ => ⟨S65536x128, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S65536x128, .f32⟩
  | .hbm, ⟨68, _⟩ => ⟨S65536x128, .f32⟩
  | .hbm, ⟨69, _⟩ => ⟨S64x1024x128, .f32⟩
  | .hbm, ⟨70, _⟩ => ⟨S64x128x128, .f32⟩
  | .hbm, ⟨71, _⟩ => ⟨S64x1024x128, .f32⟩
  | .hbm, ⟨72, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  shapeCasts_S65536x128_S64x1024x128 : S65536x128.ShapeCasts S64x1024x128
  shapeCasts_S8192x128_S64x128x128 : S8192x128.ShapeCasts S64x128x128
  shapeCasts_S64x1024x128_S65536x128 : S64x1024x128.ShapeCasts S65536x128
  scatter_S65536_S1048576x1_S1048576_n_0_0_1_wf : ScatterDims.WF S65536 S1048576x1 S1048576 [] [0] [0] 1
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S65536x128_S128x128_S65536x128_1_0_0_1_n_n_wf : DotDims.WF S65536x128 S128x128 S65536x128 [1] [0] [0] [1] [] []
  dot_S64x1024x128_S64x128x128_S64x1024x128_2_1_1_2_0_0_wf : DotDims.WF S64x1024x128 S64x128x128 S64x1024x128 [2] [1] [1] [2] [0] [0]

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S64x1024x128_S64x128x128_S64x1024x128_2_1_1_2_0_0 : DotDims S64x1024x128 S64x128x128 S64x1024x128 where
  lhsContracting := [2]
  rhsContracting := [1]
  lhsNonContracting := [1]
  rhsNonContracting := [2]
  lhsBatch := [0]
  rhsBatch := [0]
  wf := dot_S64x1024x128_S64x128x128_S64x1024x128_2_1_1_2_0_0_wf

class Facts : Prop extends Facts₀ where

variable [Facts]
-- ==== Proof.LibRowReduce.lean ====
/-
  Row-wise reductions of a matrix and the column layouts that carry their results back, read entry by entry.

  For an a×b matrix X, reducing along the second axis gives one value per row p: the sum, or the maximum, over the b
  entries X(p, 0), …, X(p, b-1).  A kernel computes it with a lane reduction, a host program with a one-operand reduce
  from an initial value; both are the same fold over the row's coordinates.  The reduced vector [a] is then laid out as
  a column [a, 1] and spread over b columns, so that entry (p, c) of the result is the value of row p.  Nothing here uses
  more than commutativity and associativity of the reduced operation, so every statement holds at the infinities too.
  Stated for any extents a and b.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowReduce

open Idealize.ShloMosaic Idealize.ShloMosaic.ValueIdx
open scoped BigOperators

variable {α : Type} {a b : ℕ}

/-! ## Column layouts -/

/-- A vector [a] laid out as the column [a, 1] reads, at (i, u), the vector at i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column at (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] spread over b columns through its column layout reads, at (p, c), the vector at p. -/
theorem column_spread_apply (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-! ## The row's entries, as the reduction names them -/

/-- Row p of an a×b matrix with the column k put back is the entry (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

variable {φ : FTy}

/-- A kernel's lane sum of an a×b block, at row p: the sum of the row's entries. -/
theorem laneSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A kernel's lane maximum of an a×b block, at row p: the fold of max over the row's entries, from the accumulator's
    value. -/
theorem laneMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (Finset.fold max _ · Finset.univ) (funext fun k => congrArg src (lift_row h p k))

/-- A host's sum along the rows of an a×b array, at row p: the initial value plus the sum of the row's entries. -/
theorem hostRowSum_apply (h' : (⟨2, ![a, b]⟩ : Shape).ReducesTo [1] ⟨1, ![a]⟩) (h : (⟨2, ![a, b]⟩ : Shape).Reduces [1] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

/-- A host's maximum along the rows of an a×b array, at row p: the fold of max over the row's entries, from the initial
    value. -/
theorem hostRowMax_apply {u : Shape} (h' : (⟨2, ![a, b]⟩ : Shape).ReducesTo [1] ⟨1, ![a]⟩)
    (h : (⟨2, ![a, b]⟩ : Shape).Reduces [1] ⟨1, ![a]⟩) (x : FVec Ideal ⟨2, ![a, b]⟩ φ) (init : u.Idx → Ideal φ) (hu : 0 < u.numel)
    (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  exact congrArg (Finset.fold max _ · Finset.univ) (funext fun k => congrArg x (lift_row h p k))

end Cert.RowReduce

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.RowSpec.lean ====
/-
  One output row of the pooling layer, on the extended reals.

  A node with feature row H and aggregated-neighbour row Nb gets the scores
      s(q) = max((Σ_k H(k)·Ws(k,q) + Σ_k Nb(k)·Wn(k,q)) + B(q), 0),
  the scores are turned into cluster weights by a softmax shifted by the row's maximum,
      a(q) = exp(s(q) − m) / Σ_j exp(s(j) − m),   m = max(−∞, max_q s(q)),
  and the node's output row is the weighted sum of its graph's cluster features, out(d) = Σ_k a(k)·Fe(k,d).
  The maximum is written as a fold from the float word of −∞ and the zero as its float word, so that neither is ever
  evaluated: both programs spell them the same way.
-/
import Idealize.ShloMosaic.PureOps.Ideal

noncomputable section

namespace Cert.Pool

open Idealize.ShloMosaic
open scoped BigOperators

/-- The float word of zero, read at the ideal values. -/
abbrev zeroW : EReal := Ideal.ofBits .f32 0x00000000#32
/-- The float word of −∞, read at the ideal values. -/
abbrev negInfW : EReal := Ideal.ofBits .f32 0xFF800000#32

variable {C K D : ℕ}

/-- The scores of one node: both projections, the bias, and the positive part. -/
def score (H Nb : Fin C → EReal) (Ws Wn : Fin C → Fin K → EReal) (B : Fin K → EReal) (q : Fin K) : EReal :=
  max ((∑ k : Fin C, H k * Ws k q + ∑ k : Fin C, Nb k * Wn k q) + B q) zeroW

/-- The largest score of the row, folded from −∞. -/
def rowMax (s : Fin K → EReal) : EReal := max negInfW ((Finset.univ : Finset (Fin K)).fold max negInfW s)

/-- The exponential of a score shifted by the row's maximum. -/
def expShift (s : Fin K → EReal) (q : Fin K) : EReal := Ideal.exp (s q - rowMax s)

/-- The softmax of the row. -/
def softmax (s : Fin K → EReal) (q : Fin K) : EReal := Ideal.div (expShift s q) (∑ j : Fin K, expShift s j)

/-- The node's output row: the softmax weights against its graph's cluster features. -/
def rowOut (H Nb : Fin C → EReal) (Ws Wn : Fin C → Fin K → EReal) (B : Fin K → EReal) (Fe : Fin K → Fin D → EReal)
    (d : Fin D) : EReal :=
  ∑ k : Fin K, softmax (score H Nb Ws Wn B) k * Fe k d

end Cert.Pool

end
-- ==== Proof.KernelRow.lean ====
/-
  The kernel's block computation read at an entry.

  On one block of 1024 nodes the body forms both projections as products into a zero splat, adds the bias row, takes
  the positive part, shifts every row by its maximum, exponentiates, divides by the row sums and multiplies the result
  by the block of cluster features.  Narrowing to the short float format is the identity on the extended reals, so at
  entry (p, d) the body's value depends only on row p of the two node blocks and is the row function of the
  specification.
-/
import proofs.«114873_j30442728194063_1_alg».proof.Proof.Gen.KernelIdeal.Skeleton
import proofs.«114873_j30442728194063_1_alg».proof.Proof.LibRowReduce
import proofs.«114873_j30442728194063_1_alg».proof.Proof.LibSplit
import proofs.«114873_j30442728194063_1_alg».proof.Proof.RowSpec
import Idealize.ShloMosaic.Lib.ValueLayout

noncomputable section

namespace Cert.KernelIdeal.Row

open Cert.KernelIdeal Cert.KernelIdeal.Gen Idealize.ShloMosaic Idealize.ShloMosaic.ValueIdx Cert.Pool Cert.RowReduce
open scoped BigOperators

/-- The body's matrix product has the plain contraction: rows of the left operand against columns of the right. -/
theorem dot_plain : dot_S1024x128_S128x128_S1024x128_1_0_0_1_n_n = DotDims.plain 1024 128 128 := rfl

/-- One projection of a block: the narrowed block times the narrowed weights, into a zero splat. -/
def proj (X : FVec Ideal S1024x128 .f32) (W : FVec Ideal S128x128 .f32) : FVec Ideal S1024x128 .f32 :=
  matmul dot_S1024x128_S128x128_S1024x128_1_0_0_1_n_n none (truncf .bf16 X bitsLt_bf16_f32) (truncf .bf16 W bitsLt_bf16_f32)
    (constant S1024x128 .f32 0x00000000#32)

/-- Entry (p, q) of a projection is Σ_k X(p,k)·W(k,q). -/
theorem proj_apply (X : FVec Ideal S1024x128 .f32) (W : FVec Ideal S128x128 .f32) (p : Fin 1024) (q : Fin 128) :
    proj X W (ix2 p q) = ∑ k : Fin 128, X (ix2 p k) * W (ix2 k q) := by
  unfold proj
  rw [Cert.Bridge.Split.matmul_zero_plain_apply _ dot_plain]
  rfl

/-- The bias row added down the block, then the positive part. -/
def scoreBlk (A : FVec Ideal S1024x128 .f32) (b : FVec Ideal S1x128 .f32) : FVec Ideal S1024x128 .f32 :=
  maximumf (addf A (broadcastTo S1024x128 (shapeCast S1x128 b shapeCasts_S1x128_S1x128) broadcasts_S1x128_S1024x128))
    (broadcast S1024x128 (Scalar.ofBits (F := Ideal) .f32 0x00000000#32))

theorem scoreBlk_apply (A : FVec Ideal S1024x128 .f32) (b : FVec Ideal S1x128 .f32) (p : Fin 1024) (q : Fin 128) :
    scoreBlk A b (ix2 p q) = max (A (ix2 p q) + b (ix2 (0 : Fin 1) q)) zeroW := by
  unfold scoreBlk
  rw [maximumf_apply, addf_apply, broadcastTo_1b_ab_apply, shapeCast_self]
  rfl

/-- Each row's maximum, folded from −∞ and compared with −∞ once more. -/
def rowMaxBlk (S : FVec Ideal S1024x128 .f32) : FVec Ideal S1024 .f32 :=
  maximumf (broadcast S1024 (Scalar.ofBits (F := Ideal) .f32 0xFF800000#32))
    (multiReduction .maximumf [1] S1024 S 0xFF800000#32 reduces_S1024x128_S1024 (.inl rfl) rfl)

theorem rowMaxBlk_apply (S : FVec Ideal S1024x128 .f32) (p : Fin 1024) :
    rowMaxBlk S (ix1 p) = rowMax (fun q => S (ix2 p q)) := by
  unfold rowMaxBlk
  rw [maximumf_apply]
  exact congrArg (max _) (laneMax_apply S 0xFF800000#32 reduces_S1024x128_S1024 (.inl rfl) rfl p)

/-- The block shifted by its rows' maxima, exponentiated. -/
def expBlk (S : FVec Ideal S1024x128 .f32) : FVec Ideal S1024x128 .f32 :=
  exp (subf S (broadcastTo S1024x128 (shapeCast S1024x1 (rowMaxBlk S) shapeCasts_S1024_S1024x1) broadcasts_S1024x1_S1024x128))

theorem expBlk_apply (S : FVec Ideal S1024x128 .f32) (p : Fin 1024) (q : Fin 128) :
    expBlk S (ix2 p q) = expShift (fun j => S (ix2 p j)) q := by
  unfold expBlk
  show Ideal.exp (S (ix2 p q) - broadcastTo S1024x128 (shapeCast S1024x1 (rowMaxBlk S) shapeCasts_S1024_S1024x1) broadcasts_S1024x1_S1024x128 (ix2 p q)) = _
  rw [column_spread_apply, rowMaxBlk_apply]
  rfl

/-- The exponentials divided by their row sums. -/
def softmaxBlk (S : FVec Ideal S1024x128 .f32) : FVec Ideal S1024x128 .f32 :=
  divf (expBlk S) (broadcastTo S1024x128 (shapeCast S1024x1
    (multiReduction .add [1] S1024 (expBlk S) 0x00000000#32 reduces_S1024x128_S1024 (.inl rfl) rfl)
    shapeCasts_S1024_S1024x1) broadcasts_S1024x1_S1024x128)

theorem softmaxBlk_apply (S : FVec Ideal S1024x128 .f32) (p : Fin 1024) (q : Fin 128) :
    softmaxBlk S (ix2 p q) = softmax (fun j => S (ix2 p j)) q := by
  unfold softmaxBlk
  rw [divf_apply, column_spread_apply, expBlk_apply]
  unfold softmax
  refine congrArg (Ideal.div _) ?_
  refine (laneSum_apply (expBlk S) 0x00000000#32 reduces_S1024x128_S1024 (.inl rfl) rfl p).trans ?_
  exact Finset.sum_congr rfl fun j _ => expBlk_apply S p j

/-- The body's value is these steps composed. -/
theorem pay_eq (x0 x1 : Vec Ideal S1024x128 .f32) (x2 x3 : Vec Ideal S128x128 .f32) (x4 : Vec Ideal S1x128 .f32)
    (x5 : Vec Ideal S128x128 .f32) :
    k0_pay1 (F := Ideal) x0 x1 x2 x3 x4 x5
      = proj (softmaxBlk (scoreBlk (addf (proj x0 x2) (proj (shapeCast S1024x128 x1 shapeCasts_S1024x128_S1024x128) x3)) x4)) x5 :=
  rfl

/-- At entry (p, d) the body's value is the row function of row p of the two node blocks, the weights, the bias row and
    the block of cluster features. -/
theorem pay_apply (x0 x1 : Vec Ideal S1024x128 .f32) (x2 x3 : Vec Ideal S128x128 .f32) (x4 : Vec Ideal S1x128 .f32)
    (x5 : Vec Ideal S128x128 .f32) (p : Fin 1024) (d : Fin 128) :
    k0_pay1 (F := Ideal) x0 x1 x2 x3 x4 x5 (ix2 p d)
      = rowOut (fun k => x0 (ix2 p k)) (fun k => x1 (ix2 p k)) (fun k q => x2 (ix2 k q)) (fun k q => x3 (ix2 k q))
          (fun q => x4 (ix2 (0 : Fin 1) q)) (fun k e => x5 (ix2 k e)) d := by
  rw [pay_eq, proj_apply]
  unfold rowOut
  refine Finset.sum_congr rfl fun k _ => congrArg (· * x5 (ix2 k d)) ?_
  rw [softmaxBlk_apply]
  refine congrArg (softmax · k) (funext fun q => ?_)
  rw [scoreBlk_apply, addf_apply, proj_apply, proj_apply, shapeCast_self]
  rfl

end Cert.KernelIdeal.Row

end
-- ==== Proof.ArraySpec.lean ====
/-
  The pooled array: every node's output row, laid out as a 65536×128 array.

  Node r belongs to graph r / 1024 (the graphs hold 1024 consecutive nodes each), and graph g owns rows
  128·g … 128·g + 127 of the cluster features.  Entry (r, d) of the result is the row function of row r of the node
  features h and of the aggregated neighbours N, the two weight matrices, the bias, and those 128 rows of cluster features.
-/
import proofs.«114873_j30442728194063_1_alg».proof.Proof.RowSpec
import Idealize.ShloMosaic.Lib.ValueIdx

noncomputable section

namespace Cert.Pool

open Idealize.ShloMosaic Idealize.ShloMosaic.ValueIdx

/-- Entry (r, d) of the pooled array. -/
def poolEntry (h N : (⟨2, ![65536, 128]⟩ : Shape).Idx → EReal) (fea : (⟨2, ![8192, 128]⟩ : Shape).Idx → EReal)
    (Ws Wn : (⟨2, ![128, 128]⟩ : Shape).Idx → EReal) (b : (⟨1, ![128]⟩ : Shape).Idx → EReal) (r : Fin 65536) (d : Fin 128) : EReal :=
  rowOut (fun k : Fin 128 => h (ix2 r k)) (fun k : Fin 128 => N (ix2 r k)) (fun (k j : Fin 128) => Ws (ix2 k j))
    (fun (k j : Fin 128) => Wn (ix2 k j)) (fun j : Fin 128 => b (ix1 j))
    (fun (k e : Fin 128) => fea (ix2 (⟨r.val / 1024 * 128 + k.val, by have := r.isLt; have := k.isLt; omega⟩ : Fin 8192) e)) d

/-- The pooled array as one function of the node features, the aggregated neighbours, the cluster features, the weights
    and the bias. -/
def poolArray (h N : (⟨2, ![65536, 128]⟩ : Shape).Idx → EReal) (fea : (⟨2, ![8192, 128]⟩ : Shape).Idx → EReal)
    (Ws Wn : (⟨2, ![128, 128]⟩ : Shape).Idx → EReal) (b : (⟨1, ![128]⟩ : Shape).Idx → EReal) :
    (⟨2, ![65536, 128]⟩ : Shape).Idx → EReal :=
  fun i => poolEntry h N fea Ws Wn b (i 0) (i 1)

theorem poolArray_apply (h N : (⟨2, ![65536, 128]⟩ : Shape).Idx → EReal) (fea : (⟨2, ![8192, 128]⟩ : Shape).Idx → EReal)
    (Ws Wn : (⟨2, ![128, 128]⟩ : Shape).Idx → EReal) (b : (⟨1, ![128]⟩ : Shape).Idx → EReal) (r : Fin 65536) (d : Fin 128) :
    poolArray h N fea Ws Wn b (ix2 r d) = poolEntry h N fea Ws Wn b r d := rfl

end Cert.Pool

end
-- ==== Proof.KernelHost.lean ====
/-
  The grid's index maps, and what the host operations before the kernel leave.

  Grid point t stages block t of the node features, of the aggregated neighbours, of the cluster features and of the
  result, and block (0, 0) of the weights and of the bias row: decided over the 64 points.  The aggregated neighbours the
  kernel is launched on are computed by the same host operations, in the same order, as the reference's; the bias row is
  the bias vector recast as one row.
-/
import proofs.«114873_j30442728194063_1_alg».proof.Proof.Gen.KernelIdeal.Value
import proofs.«114873_j30442728194063_1_alg».proof.Proof.Gen.ReferenceIdeal.Read
import proofs.«114873_j30442728194063_1_alg».proof.Proof.KernelRow
import proofs.«114873_j30442728194063_1_alg».proof.Proof.ArraySpec
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Pool
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 64 points. -/
theorem lt_64 (t : Fin cfg0.N) : t.val < 64 := lt_of_lt_of_eq t.isLt N_0

/-- The printed index maps, decided over the grid: the node blocks, the cluster-feature block and the output block move
    with the point; the weights and the bias stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## What the host operations before the kernel leave -/

/-- The aggregated neighbours the kernel is launched on are the reference's stage for them, of the same arguments. -/
theorem V_neigh (c : Dev nD) :
    (V m c main_v28 : S65536x128.Idx → EReal)
      = Cert.ReferenceIdeal.Read.val_main_v28 (F := Ideal) (m ((c : Thread nD τ).loc main_arg0))
          (m ((c : Thread nD τ).loc main_arg5)) (m ((c : Thread nD τ).loc main_arg6)) := by
  dsimp only [Gen.V, Gen.hostOps0]
  after_results_simp
  rfl

/-- The bias row the kernel is launched on is the bias vector recast as one row. -/
theorem V_bias (c : Dev nD) :
    (V m c main_v29 : S1x128.Idx → EReal)
      = shapeCast S1x128 (m ((c : Thread nD τ).loc main_arg4) : S128.Idx → EReal) shapeCasts_S128_S1x128 := by
  dsimp only [Gen.V, Gen.hostOps0]
  after_results
  rfl

end Cert.KernelIdeal.Array

end
-- ==== Proof.KernelBlocks.lean ====
/-
  The kernel's input blocks at a grid point, as rows of the arrays.

  Entry (p, k) of a node block at point t is entry (1024·t + p, k) of its array; entry (k, e) of the cluster-feature block
  is entry (128·t + k, e); the weight blocks are the whole matrices and the bias block is the bias vector.  A block's
  coordinate along an axis is the block index times the block size plus the coordinate inside the block.
-/
import proofs.«114873_j30442728194063_1_alg».proof.Proof.Gen.KernelIdeal.Value
import proofs.«114873_j30442728194063_1_alg».proof.Proof.KernelHost
import proofs.«114873_j30442728194063_1_alg».proof.Proof.Gen.ReferenceIdeal.Read
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The input blocks at a point, as rows of the arrays -/

/-- The first node block at point t: rows 1024·t … of the node features. -/
theorem iblk0_apply (c : Dev nD) (t : Fin cfg0.N) (p : Fin 1024) (k : Fin 128) :
    (iblk m c 0 t : Vec Ideal S1024x128 .f32) (ix2 p k)
      = (m ((c : Thread nD τ).loc main_arg0) : S65536x128.Idx → EReal)
          (ix2 (⟨t.val * 1024 + p.val, by have := lt_64 t; have := p.isLt; omega⟩ : Fin 65536) k) := by
  obtain ⟨⟨e0, e1⟩, -⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 128 + 1 * k.val = k.val; rw [e1]; omega

/-- Window 1's block at point t, read off any 65536×128 array: rows 1024·t … of it. -/
theorem read_blk1 (t : Fin cfg0.N) (A : S65536x128.Idx → EReal) (p : Fin 1024) (k : Fin 128) :
    (((cfg0.win 1).blk t).view.read (Elt Ideal) A : Vec Ideal S1024x128 .f32) (ix2 p k)
      = A (ix2 (⟨t.val * 1024 + p.val, by have := lt_64 t; have := p.isLt; omega⟩ : Fin 65536) k) := by
  obtain ⟨-, ⟨e0, e1⟩, -⟩ := idx_facts t
  rw [View.read_apply]
  show A _ = _
  refine congrArg _ (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 128 + 1 * k.val = k.val; rw [e1]; omega

/-- The second node block at point t: rows 1024·t … of the aggregated neighbours. -/
theorem iblk1_apply (c : Dev nD) (t : Fin cfg0.N) (p : Fin 1024) (k : Fin 128) :
    (iblk m c 1 t : Vec Ideal S1024x128 .f32) (ix2 p k)
      = Cert.ReferenceIdeal.Read.val_main_v28 (F := Ideal) (m ((c : Thread nD τ).loc main_arg0))
          (m ((c : Thread nD τ).loc main_arg5)) (m ((c : Thread nD τ).loc main_arg6))
          (ix2 (⟨t.val * 1024 + p.val, by have := lt_64 t; have := p.isLt; omega⟩ : Fin 65536) k) := by
  unfold iblk
  exact (read_blk1 t (V m c main_v28) p k).trans (congrFun (V_neigh m c) _)

/-- The first weight block at any point: the whole matrix. -/
theorem iblk2_apply (c : Dev nD) (t : Fin cfg0.N) (k j : Fin 128) :
    (iblk m c 2 t : Vec Ideal S128x128 .f32) (ix2 k j)
      = (m ((c : Thread nD τ).loc main_arg2) : S128x128.Idx → EReal) (ix2 k j) := by
  obtain ⟨-, -, ⟨e0, e1⟩, -⟩ := idx_facts t
  unfold iblk
  rw [View.read_apply]
  show V m c main_arg2 _ = _
  rw [V_main_arg2 m c]
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The second weight block at any point: the whole matrix. -/
theorem iblk3_apply (c : Dev nD) (t : Fin cfg0.N) (k j : Fin 128) :
    (iblk m c 3 t : Vec Ideal S128x128 .f32) (ix2 k j)
      = (m ((c : Thread nD τ).loc main_arg3) : S128x128.Idx → EReal) (ix2 k j) := by
  obtain ⟨-, -, -, ⟨e0, e1⟩, -⟩ := idx_facts t
  unfold iblk
  rw [View.read_apply]
  show V m c main_arg3 _ = _
  rw [V_main_arg3 m c]
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The bias block at any point: the bias vector. -/
theorem iblk4_apply (c : Dev nD) (t : Fin cfg0.N) (j : Fin 128) :
    (iblk m c 4 t : Vec Ideal S1x128 .f32) (ix2 (0 : Fin 1) j)
      = (m ((c : Thread nD τ).loc main_arg4) : S128.Idx → EReal) (ix1 j) := by
  obtain ⟨-, -, -, -, ⟨e0, e1⟩, -⟩ := idx_facts t
  unfold iblk
  rw [View.read_apply]
  show V m c main_v29 _ = _
  rw [V_bias m c]
  refine Eq.trans (congrArg _ (funext fun a => Fin.ext ?_)) (shapeCast_a_1a_apply _ shapeCasts_S128_S1x128 (0 : Fin 1) j)
  match a with
  | ⟨0, _⟩ => show win0_4.index t (0 : Fin 2) * 1 + 1 * 0 = 0; rw [e0]
  | ⟨1, _⟩ => show win0_4.index t (1 : Fin 2) * 128 + 1 * j.val = j.val; rw [e1]; omega

/-- The cluster-feature block at point t: rows 128·t … of the cluster features. -/
theorem iblk5_apply (c : Dev nD) (t : Fin cfg0.N) (k e : Fin 128) :
    (iblk m c 5 t : Vec Ideal S128x128 .f32) (ix2 k e)
      = (m ((c : Thread nD τ).loc main_arg1) : S8192x128.Idx → EReal)
          (ix2 (⟨t.val * 128 + k.val, by have := lt_64 t; have := k.isLt; omega⟩ : Fin 8192) e) := by
  obtain ⟨-, -, -, -, -, ⟨e0, e1⟩, -⟩ := idx_facts t
  unfold iblk
  rw [View.read_apply]
  show V m c main_arg1 _ = _
  rw [V_main_arg1 m c]
  refine congrArg _ (funext fun a => Fin.ext ?_)
  match a with
  | ⟨0, _⟩ => show win0_5.index t (0 : Fin 2) * 128 + 1 * k.val = t.val * 128 + k.val; rw [e0]; omega
  | ⟨1, _⟩ => show win0_5.index t (1 : Fin 2) * 128 + 1 * e.val = e.val; rw [e1]; omega

end Cert.KernelIdeal.Array

end
-- ==== Proof.KernelArray.lean ====
/-
  From the kernel's blocks to its result array.

  Grid point t works on nodes 1024·t … 1024·t + 1023: its two node blocks are those rows of the node features and of the
  aggregated neighbours, its block of cluster features is rows 128·t … 128·t + 127, and the weights and the bias row are
  read whole at every point.  By the block computation read at an entry, what point t writes back is block t of the
  pooled array; the 64 blocks tile the 65536 rows, so the result array is the pooled array.  The aggregated neighbours
  are what the host operations before the kernel leave, the same operations in the same order as the reference's, and
  the bias row is the bias vector recast as one row.
-/
import proofs.«114873_j30442728194063_1_alg».proof.Proof.Gen.KernelIdeal.Value
import proofs.«114873_j30442728194063_1_alg».proof.Proof.KernelBlocks
import proofs.«114873_j30442728194063_1_alg».proof.Proof.Gen.ReferenceIdeal.Read
import proofs.«114873_j30442728194063_1_alg».proof.Proof.KernelRow
import proofs.«114873_j30442728194063_1_alg».proof.Proof.ArraySpec
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Pool
open Idealize.ShloMosaic.Pipeline (Dat)

variable (m : (ℓ : Loc nD τ sig) → Buf (Elt Ideal) ℓ) (ρ : Dev nD → PrngReg)

/-! ## The result array -/

/-- The pooled array of the kernel's arguments, the aggregated neighbours being the reference's stage for them. -/
abbrev result (c : Dev nD) : S65536x128.Idx → EReal :=
  poolArray (m ((c : Thread nD τ).loc main_arg0))
    (Cert.ReferenceIdeal.Read.val_main_v28 (F := Ideal) (m ((c : Thread nD τ).loc main_arg0))
      (m ((c : Thread nD τ).loc main_arg5)) (m ((c : Thread nD τ).loc main_arg6)))
    (m ((c : Thread nD τ).loc main_arg1)) (m ((c : Thread nD τ).loc main_arg2)) (m ((c : Thread nD τ).loc main_arg3))
    (m ((c : Thread nD τ).loc main_arg4))

/-- The body's value at entry (p, d) of point t's block is entry (1024·t + p, d) of the pooled array. -/
theorem pay_at (c : Dev nD) (t : Fin cfg0.N) (p : Fin 1024) (d : Fin 128) :
    k0_pay1 (F := Ideal) (iblk m c 0 t) (iblk m c 1 t) (iblk m c 2 t) (iblk m c 3 t) (iblk m c 4 t) (iblk m c 5 t) (ix2 p d)
      = result m c (ix2 (⟨t.val * 1024 + p.val, by have := lt_64 t; have := p.isLt; omega⟩ : Fin 65536) d) := by
  have ht := lt_64 t
  have hp := p.isLt
  refine (Cert.KernelIdeal.Row.pay_apply (iblk m c 0 t) (iblk m c 1 t) (iblk m c 2 t) (iblk m c 3 t) (iblk m c 4 t)
    (iblk m c 5 t) p d).trans ?_
  show _ = poolEntry _ _ _ _ _ _ (⟨t.val * 1024 + p.val, by omega⟩ : Fin 65536) d
  unfold poolEntry
  have hrow : ∀ k : Fin 128, (⟨(t.val * 1024 + p.val) / 1024 * 128 + k.val, by have := k.isLt; omega⟩ : Fin 8192)
      = ⟨t.val * 128 + k.val, by have := k.isLt; omega⟩ := fun k => Fin.ext (by
    show (t.val * 1024 + p.val) / 1024 * 128 + k.val = t.val * 128 + k.val
    omega)
  simp only [iblk0_apply m c t, iblk1_apply m c t, iblk2_apply m c t, iblk3_apply m c t, iblk4_apply m c t,
    iblk5_apply m c t, hrow]

/-- What point t writes back is block t of the pooled array. -/
theorem flushed_eq (c : Dev nD) (t : Fin cfg0.N) :
    (dats m 0 c).flushed 6 t = ((cfg0.win 6).blk t).view.read (Elt Ideal) (result m c) := by
  rw [Value.flushed6 m c t]
  unfold out0_6
  rw [View.canon_unit_zero hz]
  simp only [View.ld_unit_zero (S := S1024x128) hz, View.ld_unit_zero (S := S128x128) hz, View.ld_unit_zero (S := S1x128) hz]
  obtain ⟨-, -, -, -, -, -, ⟨e0, e1⟩⟩ := idx_facts t
  funext j
  obtain ⟨p, d, rfl⟩ : ∃ (p : Fin 1024) (d : Fin 128), j = ix2 p d := ⟨j 0, j 1, eq_ix2 j⟩
  show k0_pay1 (F := Ideal) (iblk m c 0 t) (iblk m c 1 t) (iblk m c 2 t) (iblk m c 3 t) (iblk m c 4 t) (iblk m c 5 t) (ix2 p d)
    = result m c (((cfg0.win 6).blk t).view.emb (ix2 p d))
  refine (pay_at m c t p d).trans (congrArg _ (funext fun a => Fin.ext ?_))
  match a with
  | ⟨0, _⟩ => show t.val * 1024 + p.val = win0_6.index t (0 : Fin 2) * 1024 + 1 * p.val; rw [e0]; omega
  | ⟨1, _⟩ => show d.val = win0_6.index t (1 : Fin 2) * 128 + 1 * d.val; rw [e1]; omega

/-- An index of the array is in point t's block iff each coordinate is in the block's range on its axis. -/
theorem mem_blk (t : Fin cfg0.N) (i : S65536x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_v30).slice (win0_6.rect t)).set ↔ _
  rw [View.set_slice_whole, Rect.mem_set_unit]
  exact Iff.rfl

/-- Every index of the result array is in the block of the point its row's graph names. -/
theorem cover (i : S65536x128.Idx) :
    ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 64 := N_0
  let t : Fin cfg0.N := ⟨(i 0).val / 1024, by rw [hN]; omega⟩
  obtain ⟨-, -, -, -, -, -, ⟨e0, e1⟩⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    rw [e0]
    show (i 0).val / 1024 * 1024 ≤ (i 0).val ∧ (i 0).val < (i 0).val / 1024 * 1024 + 1024
    omega
  | ⟨1, _⟩ =>
    show win0_6.index t (1 : Fin 2) * 128 ≤ (i 1).val ∧ (i 1).val < win0_6.index t (1 : Fin 2) * 128 + 128
    rw [e1]
    omega

/-- The result array after the run is the pooled array. -/
theorem final (c : Dev nD) : (dats m 0 c).arrAt 6 cfg0.N = result m c :=
  (dats m 0 c).arrAt_eq_of_cover 6 (result m c) (fun t _ => flushed_eq m c t) cover

/-- The kernel's run, read: the result array at the pooled array of the arguments, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Array

end
-- ==== Proof.RefRow.lean ====
/-
  The reference read at an entry.

  The reference computes the scores of all 65536 nodes with two whole matrix products, takes the positive part, applies
  a softmax along the 128 clusters, regroups the nodes as 64 graphs of 1024 and multiplies each graph's weights by its own
  128 rows of cluster features.  Read at entry (r, d) every step depends on row r only, and regrouping sends node r to
  graph r / 1024, whose cluster features are rows 128·(r / 1024) … 128·(r / 1024) + 127: the entry is the row function of
  the specification.  The aggregated-neighbour array is kept as one unopened term.
-/
import proofs.«114873_j30442728194063_1_alg».proof.Proof.Gen.ReferenceIdeal.Read
import proofs.«114873_j30442728194063_1_alg».proof.Proof.LibRowReduce
import proofs.«114873_j30442728194063_1_alg».proof.Proof.RowSpec

noncomputable section

namespace Cert.ReferenceIdeal.RefRow

open Cert.ReferenceIdeal Cert.ReferenceIdeal.Gen Cert.ReferenceIdeal.Read Idealize.ShloMosaic Idealize.ShloMosaic.ValueIdx
open Cert.Pool Cert.RowReduce
open scoped BigOperators

variable (x0 : (⟨S65536x128, .f32⟩ : BufTy).Contents (Elt Ideal)) (x1 : (⟨S8192x128, .f32⟩ : BufTy).Contents (Elt Ideal))
  (x2 x3 : (⟨S128x128, .f32⟩ : BufTy).Contents (Elt Ideal)) (x4 : (⟨S128, .f32⟩ : BufTy).Contents (Elt Ideal))
  (x5 x6 : (⟨S1048576, .i32⟩ : BufTy).Contents (Elt Ideal))

/-- The scores of node r: the positive part of both projections plus the bias. -/
theorem score_apply (r : Fin 65536) (q : Fin 128) :
    val_main_v35 (F := Ideal) x0 x2 x3 x4 x5 x6 (ix2 r q)
      = score (fun k => x0 (ix2 r k)) (fun k => val_main_v28 (F := Ideal) x0 x5 x6 (ix2 r k)) (fun k j => x2 (ix2 k j))
          (fun k j => x3 (ix2 k j)) (fun j => x4 (ix1 j)) q := by
  have el : ∀ k : Fin 128, lidx_main_v29 (ix2 r q) k = ix2 r k := fun k => funext fun a => by
    match a with | ⟨0, _⟩ => rfl | ⟨1, _⟩ => rfl
  have er : ∀ k : Fin 128, ridx_main_v29 (ix2 r q) k = ix2 k q := fun k => funext fun a => by
    match a with | ⟨0, _⟩ => rfl | ⟨1, _⟩ => rfl
  have el' : ∀ k : Fin 128, lidx_main_v30 (ix2 r q) k = ix2 r k := fun k => funext fun a => by
    match a with | ⟨0, _⟩ => rfl | ⟨1, _⟩ => rfl
  have er' : ∀ k : Fin 128, ridx_main_v30 (ix2 r q) k = ix2 k q := fun k => funext fun a => by
    match a with | ⟨0, _⟩ => rfl | ⟨1, _⟩ => rfl
  have eb : idx_main_v32 (idx_main_v33 (ix2 r q)) = ix1 q := funext fun a => by
    match a with | ⟨0, _⟩ => rfl
  rw [val_main_v35_apply, val_main_v34_apply, val_main_v31_apply, val_main_v29_apply, val_main_v30_apply, val_main_v33_apply,
    val_main_v32_apply, val_main_call0_v0_apply, val_main_call0_cst_apply]
  simp only [el, er, el', er', eb]
  rfl

/-- The largest score of node r, as the reference folds it. -/
theorem rowMax_apply (r : Fin 65536) :
    val_main_v38 (F := Ideal) x0 x2 x3 x4 x5 x6 (ix1 r)
      = rowMax (fun q => val_main_v35 (F := Ideal) x0 x2 x3 x4 x5 x6 (ix2 r q)) := by
  rw [val_main_v38_apply, val_main_v37_apply, val_main_cst_9_apply]
  unfold val_main_v36
  exact congrArg (max _) (hostRowMax_apply reducesTo_S65536x128_S65536_d1 (by decide)
    (val_main_v35 (F := Ideal) x0 x2 x3 x4 x5 x6) (val_main_cst_8 (F := Ideal)) h_S_ r)

/-- The shifted exponential of a score of node r. -/
theorem exp_apply (r : Fin 65536) (q : Fin 128) :
    val_main_v42 (F := Ideal) x0 x2 x3 x4 x5 x6 (ix2 r q)
      = expShift (fun j => val_main_v35 (F := Ideal) x0 x2 x3 x4 x5 x6 (ix2 r j)) q := by
  have e : idx_main_v39 (idx_main_v40 (ix2 r q)) = ix1 r := funext fun a => by
    match a with | ⟨0, _⟩ => rfl
  rw [val_main_v42_apply, val_main_v41_apply, val_main_v40_apply, val_main_v39_apply, e, rowMax_apply]
  rfl

/-- The softmax weight of cluster q for node r. -/
theorem softmax_apply (r : Fin 65536) (q : Fin 128) :
    val_main_v46 (F := Ideal) x0 x2 x3 x4 x5 x6 (ix2 r q)
      = softmax (fun j => val_main_v35 (F := Ideal) x0 x2 x3 x4 x5 x6 (ix2 r j)) q := by
  have e : idx_main_v44 (idx_main_v45 (ix2 r q)) = ix1 r := funext fun a => by
    match a with | ⟨0, _⟩ => rfl
  have ek : ∀ k : Fin 128, idx_main_v43 (ix1 r) k = ix2 r k := fun k => funext fun a => by
    match a with | ⟨0, _⟩ => rfl | ⟨1, _⟩ => rfl
  rw [val_main_v46_apply, val_main_v45_apply, val_main_v44_apply, e, val_main_v43_apply, exp_apply]
  simp only [ek, exp_apply]
  unfold softmax
  show Ideal.div _ (Ideal.ofBits .f32 0x00000000#32 + _) = _
  rw [Ideal.ofBits_zero_f32, zero_add]

/-- Entry (r, d) of the reference's result is the row function of row r of the node features and of the aggregated
    neighbours, the weights, the bias, and rows 128·(r / 1024) … of the cluster features. -/
theorem out_apply (r : Fin 65536) (d : Fin 128) :
    val_main_v50 (F := Ideal) x0 x1 x2 x3 x4 x5 x6 (ix2 r d)
      = rowOut (fun k => x0 (ix2 r k)) (fun k => val_main_v28 (F := Ideal) x0 x5 x6 (ix2 r k)) (fun k j => x2 (ix2 k j))
          (fun k j => x3 (ix2 k j)) (fun j => x4 (ix1 j))
          (fun k e => x1 (ix2 (⟨r.val / 1024 * 128 + k.val, by have := r.isLt; have := k.isLt; omega⟩ : Fin 8192) e)) d := by
  have hr := r.isLt
  have hd := d.isLt
  have ea : ∀ k : Fin 128, idx_main_v47 (lidx_main_v49 (idx_main_v50 (ix2 r d)) k) = ix2 r k := fun k => funext fun a => Fin.ext (by
    have hk := k.isLt
    match a with
    | ⟨0, _⟩ =>
      show (((r.val * 128 + d.val) / 131072 * 1024 + (r.val * 128 + d.val) / 128 % 1024) * 128 + k.val) / 128 = r.val
      omega
    | ⟨1, _⟩ =>
      show (((r.val * 128 + d.val) / 131072 * 1024 + (r.val * 128 + d.val) / 128 % 1024) * 128 + k.val) % 128 = k.val
      omega)
  have eb : ∀ k : Fin 128, idx_main_v48 (ridx_main_v49 (idx_main_v50 (ix2 r d)) k)
      = ix2 (⟨r.val / 1024 * 128 + k.val, by have := k.isLt; omega⟩ : Fin 8192) d := fun k => funext fun a => Fin.ext (by
    have hk := k.isLt
    match a with
    | ⟨0, _⟩ =>
      show (((r.val * 128 + d.val) / 131072 * 128 + k.val) * 128 + (r.val * 128 + d.val) % 128) / 128 = r.val / 1024 * 128 + k.val
      omega
    | ⟨1, _⟩ =>
      show (((r.val * 128 + d.val) / 131072 * 128 + k.val) * 128 + (r.val * 128 + d.val) % 128) % 128 = d.val
      omega)
  rw [val_main_v50_apply, val_main_v49_apply]
  unfold rowOut
  refine Finset.sum_congr rfl fun k _ => ?_
  rw [val_main_v47_apply, val_main_v48_apply, ea, eb, softmax_apply]
  exact congrArg (fun s => softmax s k * _) (funext fun j => score_apply x0 x2 x3 x4 x5 x6 r j)

end Cert.ReferenceIdeal.RefRow

end
-- ==== Proof.RefArray.lean ====
/-
  The reference's result is the pooled array of its arguments, the aggregated neighbours being its own stage for them.
-/
import proofs.«114873_j30442728194063_1_alg».proof.Proof.RefRow
import proofs.«114873_j30442728194063_1_alg».proof.Proof.ArraySpec

noncomputable section

namespace Cert.ReferenceIdeal.RefRow

open Cert.ReferenceIdeal Cert.ReferenceIdeal.Gen Cert.ReferenceIdeal.Read Idealize.ShloMosaic Idealize.ShloMosaic.ValueIdx
open Cert.Pool

/-- Index by index the reference's last stage is the pooled array. -/
theorem result_eq (x0 : (⟨S65536x128, .f32⟩ : BufTy).Contents (Elt Ideal)) (x1 : (⟨S8192x128, .f32⟩ : BufTy).Contents (Elt Ideal))
    (x2 x3 : (⟨S128x128, .f32⟩ : BufTy).Contents (Elt Ideal)) (x4 : (⟨S128, .f32⟩ : BufTy).Contents (Elt Ideal))
    (x5 x6 : (⟨S1048576, .i32⟩ : BufTy).Contents (Elt Ideal)) :
    val_main_v50 (F := Ideal) x0 x1 x2 x3 x4 x5 x6 = poolArray x0 (val_main_v28 (F := Ideal) x0 x5 x6) x1 x2 x3 x4 := by
  funext i
  obtain ⟨r, d, rfl⟩ : ∃ (r : Fin 65536) (d : Fin 128), i = ix2 r d := ⟨i 0, i 1, eq_ix2 i⟩
  rw [out_apply, poolArray_apply]
  rfl

end Cert.ReferenceIdeal.RefRow

end
-- ==== Proof.lean ====
/-
  Graph pooling: neighbour aggregation, a softmax cluster assignment, and a per-graph product with the cluster features.

  Both programs first aggregate, with the same host operations in the same order, the mean of each node's in-neighbours
  (a scatter-add of gathered feature rows, divided by the in-degree or one).  The kernel then works graph by graph: for
  the 1024 nodes of one graph it forms the two projections, adds the bias, takes the positive part, applies a softmax
  along the 128 clusters and multiplies by the graph's 128 rows of cluster features.  The reference does the same with
  whole-array operations and one batched product over the 64 graphs.  On the extended reals a change of float format is
  the identity, a product accumulated into a zero splat is the plain product, and a lane reduction and a host reduction
  are the same fold, so entry (r, d) of either result is one function of row r of the node features and of the
  aggregated neighbours, the weights, the bias, and the cluster features of graph r / 1024.  No algebraic law beyond
  re-indexing is used, so the finiteness of the inputs is never opened.  The kernel's blocks are turned into its result
  array by the cover of the 65536 rows by the 64 blocks; the three frames are the generated ones, and the idealization
  rewrote nothing.
-/
import proofs.«114873_j30442728194063_1_alg».proof.Defs
import proofs.«114873_j30442728194063_1_alg».proof.Proof.Gen.Kernel
import proofs.«114873_j30442728194063_1_alg».proof.Proof.Gen.Kernel.Skeleton
import proofs.«114873_j30442728194063_1_alg».proof.Proof.Gen.Kernel.Launch
import proofs.«114873_j30442728194063_1_alg».proof.Proof.Gen.Kernel.Points
import proofs.«114873_j30442728194063_1_alg».proof.Proof.Gen.Kernel.Frame
import proofs.«114873_j30442728194063_1_alg».proof.Proof.Gen.KernelIdeal
import proofs.«114873_j30442728194063_1_alg».proof.Proof.Gen.KernelIdeal.Skeleton
import proofs.«114873_j30442728194063_1_alg».proof.Proof.Gen.KernelIdeal.Launch
import proofs.«114873_j30442728194063_1_alg».proof.Proof.Gen.KernelIdeal.Points
import proofs.«114873_j30442728194063_1_alg».proof.Proof.Gen.KernelIdeal.Frame
import proofs.«114873_j30442728194063_1_alg».proof.Proof.Gen.ReferenceIdeal
import proofs.«114873_j30442728194063_1_alg».proof.Proof.Gen.Pre_finite_inputs
import proofs.«114873_j30442728194063_1_alg».proof.Proof.Gen.KernelIdeal.Value
import proofs.«114873_j30442728194063_1_alg».proof.Proof.Gen.ReferenceIdeal.Run
import proofs.«114873_j30442728194063_1_alg».proof.Proof.Gen.ReferenceIdeal.Read
import proofs.«114873_j30442728194063_1_alg».proof.Proof.KernelArray
import proofs.«114873_j30442728194063_1_alg».proof.Proof.RefArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array and the reference's result are both the pooled array of the arguments. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefRow.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
